-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S256x4096 : Shape := ⟨2, ![256, 4096]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .f32⟩
  | .hbm, ⟨3, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S4x4096x4096 : Shape := ⟨3, ![4, 4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4x4096x4096, .f32⟩
  | .hbm, ⟨3, _⟩ => ⟨S4x4096x4096, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .i1⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)

variable [Facts₀]

class Facts : Prop extends Facts₀ where

variable [Facts]
-- ==== Proof.Spec.lean ====
/-
  The scalar function that both programs apply to every entry of the input, written once with the
  cubic term left as a parameter, and the two groupings of that cubic term.

  For an entry x the result is
      x                                          when x ≥ 3,
      0                                          when x ≤ -3 (and not x ≥ 3),
      (½ · x) · (1 + tanh (s · (x + q)))         otherwise,
  where s is the single-precision value nearest √(2/π), and q is the cubic term c · x³ with c the
  single-precision value nearest 0.044715.  The two programs differ only in how they group the three
  multiplications of q: one forms c · ((x · x) · x), the other ((c · x) · x) · x.  Over the extended
  reals multiplication is associative (also at the infinities), so the two groupings agree for every
  x, finite or not; the hyperbolic tangent of the vector unit and that of the host are one function
  of an extended real.  The constants are kept as their binary words: the same word stands on both
  sides and is never evaluated.
-/
import Idealize.ShloMosaic.PureOps.Ideal

noncomputable section

namespace Cert.PiecewiseGelu

open Idealize.ShloMosaic

variable {F : FTy → Type} [FloatOps F]

/-- The cubic term grouped as c · ((x · x) · x). -/
def cubicSquareFirst (x : F .f32) : F .f32 :=
  FloatOps.mulf (FloatOps.ofBits .f32 0x3D372713#32) (FloatOps.mulf (FloatOps.mulf x x) x)

/-- The cubic term grouped as ((c · x) · x) · x. -/
def cubicScaleFirst (x : F .f32) : F .f32 :=
  FloatOps.mulf (FloatOps.mulf (FloatOps.mulf (FloatOps.ofBits .f32 0x3D372713#32) x) x) x

/-- The piecewise function of an entry `x`, given its cubic term `q` and the hyperbolic tangent `th` in use:
    `x` where `x ≥ 3`, else `0` where `x ≤ -3`, else `(½ · x) · (1 + th (s · (x + q)))`. -/
def piecewise (th : F .f32 → F .f32) (x q : F .f32) : F .f32 :=
  Scalar.select (FloatOps.cmpf .oge x (FloatOps.ofBits .f32 0x40400000#32)) x
    (Scalar.select (FloatOps.cmpf .ole x (FloatOps.ofBits .f32 0xC0400000#32)) (FloatOps.ofBits .f32 0x00000000#32)
      (FloatOps.mulf (FloatOps.mulf (FloatOps.ofBits .f32 0x3F000000#32) x)
        (FloatOps.addf (FloatOps.ofBits .f32 0x3F800000#32)
          (th (FloatOps.mulf (FloatOps.ofBits .f32 0x3F4C422A#32) (FloatOps.addf x q))))))

/-- The function with the square formed first and the vector unit's hyperbolic tangent. -/
def geluSquareFirst (x : F .f32) : F .f32 := piecewise FloatOps.tanh x (cubicSquareFirst x)

/-- The function with the constant multiplied in first and the host's hyperbolic tangent. -/
def geluScaleFirst (x : F .f32) : F .f32 := piecewise (FloatOps.hostUnary .tanh) x (cubicScaleFirst x)

/-- Over the extended reals the two groupings of the cubic term are equal: associativity of the product,
    which holds at the infinities too, so nothing is asked of `x`. -/
theorem cubic_regroup (x : Ideal .f32) : cubicSquareFirst x = cubicScaleFirst x := by
  simp only [cubicSquareFirst, cubicScaleFirst, Ideal.mulf_def, mul_assoc]

/-- Over the extended reals the two spellings are one function. -/
theorem gelu_regroup (x : Ideal .f32) : geluSquareFirst x = geluScaleFirst x := by
  have ht : (FloatOps.tanh : Ideal .f32 → Ideal .f32) = FloatOps.hostUnary .tanh := rfl
  unfold geluSquareFirst geluScaleFirst
  rw [cubic_regroup x, ht]

end Cert.PiecewiseGelu

end
-- ==== Proof.ReferenceEntrywise.lean ====
/-
  The reference, entry by entry.  Its program is a chain of whole-array operations over f32[4, 4096, 4096]:
  four scalar constants broadcast to the array's shape, products, sums, one hyperbolic tangent, two
  comparisons and two selections, each acting on every entry independently.  Read at an index `i` the
  chain collapses to one scalar expression of the input's entry at `i`: the piecewise function with the
  cubic term grouped as ((c · x) · x) · x and the host's hyperbolic tangent.
-/
import proofs.«105609_j9646496546830_2_alg».proof.Proof.Gen.ReferenceIdeal.Read
import proofs.«105609_j9646496546830_2_alg».proof.Proof.Spec

noncomputable section

namespace Cert.ReferenceIdeal.Entrywise

open Cert.ReferenceIdeal Idealize.ShloMosaic Cert.PiecewiseGelu

variable {F : FTy → Type} [FloatOps F]

/-- The reference's last stage at an index is the piecewise function of the input's entry there: each
    broadcast constant reads as its word at every index, every other stage reads its operands at the same index. -/
theorem result_apply (x : (⟨S4x4096x4096, .f32⟩ : BufTy).Contents (Elt F)) (i : S4x4096x4096.Idx) :
    Read.val_main_v19 (F := F) x i = geluScaleFirst (x i) := by
  rw [Read.val_main_v19_apply, Read.val_main_v18_apply, Read.val_main_v17_apply, Read.val_main_cst_5_apply,
    Read.val_main_v16_apply, Read.val_main_v14_apply, Read.val_main_v13_apply, Read.val_main_cst_3_apply,
    Read.val_main_v15_apply, Read.val_main_cst_4_apply, Read.val_main_v12_apply, Read.val_main_v8_apply,
    Read.val_main_v7_apply, Read.val_main_cst_1_apply, Read.val_main_v11_apply, Read.val_main_v10_apply,
    Read.val_main_cst_2_apply, Read.val_main_v9_apply, Read.val_main_v6_apply, Read.val_main_v5_apply,
    Read.val_main_cst_0_apply, Read.val_main_v4_apply, Read.val_main_v3_apply, Read.val_main_v2_apply,
    Read.val_main_v1_apply, Read.val_main_v0_apply, Read.val_main_cst_apply]
  rfl

/-- The reference's result array as one function of its input array. -/
theorem result_eq (x : (⟨S4x4096x4096, .f32⟩ : BufTy).Contents (Elt F)) :
    Read.val_main_v19 (F := F) x = fun i => geluScaleFirst (x i) :=
  funext (result_apply x)

end Cert.ReferenceIdeal.Entrywise

end
-- ==== Proof.KernelEntrywise.lean ====
/-
  The kernel body, entry by entry.  The body loads its whole 256 × 4096 input block, applies a chain of
  vector operations — every one of them acting on each entry independently (products, sums, a hyperbolic
  tangent, comparisons against broadcast constants, selections; the one shape cast is to the same shape) —
  and stores the result over its whole output block.  So the stored block at an entry `j` is a scalar
  expression of the loaded block's entry `j`: the piecewise function with the cubic term grouped as
  c · ((x · x) · x) and the vector unit's hyperbolic tangent.
-/
import proofs.«105609_j9646496546830_2_alg».proof.Proof.Gen.KernelIdeal.Skeleton
import proofs.«105609_j9646496546830_2_alg».proof.Proof.Spec
import Idealize.ShloMosaic.Lib.Pipeline.Value

noncomputable section

namespace Cert.KernelIdeal.Entrywise

open Cert.KernelIdeal Idealize.ShloMosaic Cert.PiecewiseGelu

variable {F : FTy → Type} [FloatOps F]

/-- The value the body stores is, at every entry, the piecewise function of the loaded block's entry. -/
theorem stored_eq (v : Vec F S256x4096 .f32) :
    Gen.k0_pay1 v = fun j => geluSquareFirst (v j) := by
  unfold Gen.k0_pay1
  simp only [shapeCast_self]
  rfl

end Cert.KernelIdeal.Entrywise

end
-- ==== Proof.KernelBlocks.lean ====
/-
  From blocks to the array.  The kernel's call walks a grid of 64 points over a 16384 × 4096 array; at point
  `t` it stages rows 256·t … 256·t + 255 (all 4096 columns) of its input array, runs the body on that block,
  and writes the body's result back over the same rows of its output array.  The body acts entry by entry, so
  what point `t` writes back is block `t` of ONE whole-array function — the piecewise function applied to every
  entry of the input array.  The 64 blocks tile the output array (row `r` lies in the block of point `r / 256`),
  so after the last point the output array is that function of the input array, everywhere.
-/
import proofs.«105609_j9646496546830_2_alg».proof.Proof.Gen.KernelIdeal.Frame
import proofs.«105609_j9646496546830_2_alg».proof.Proof.KernelEntrywise
import Idealize.ShloMosaic.Lib.Pipeline.Value

noncomputable section

namespace Cert.KernelIdeal.Blocks

open Cert.KernelIdeal Cert.KernelIdeal.Gen Idealize.ShloMosaic Idealize.ShloMosaic.TcCoe Idealize.SL.Sem Cert.PiecewiseGelu
open Idealize.ShloMosaic.Pipeline (Dat)

variable {F : FTy → Type} [FloatOps F]
variable (m : (ℓ : Loc nD τ sig) → Buf (Elt F) ℓ) (ρ : Dev nD → PrngReg)

/-- The body's one load and one store start at row 0, column 0 of their block. -/
theorem origin : (![0, 0] : Fin 2 → Nat) = fun _ => 0 := funext fun a => by fin_cases a <;> rfl

/-- The piecewise function applied to every entry of a 16384 × 4096 array. -/
abbrev rowsGelu (a : S16384x4096.Idx → Elt F .f32) : S16384x4096.Idx → Elt F .f32 := fun i => geluSquareFirst (a i)

/-- At every grid point the input's block and the output's block have the same block index on both axes. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 64 row blocks is some grid point's output block. -/
theorem block_onto : ∀ q : Fin 64, ∃ t : Fin cfg0.N, win0_1.index t = ![q.val, 0] :=
  (by decide +kernel : ∀ q : Fin 64, ∃ t : Fin grid0.N, win0_1.index t = ![q.val, 0])

/-- What point `t` writes back is block `t` of the piecewise function of the input array as the call finds it:
    the one store covers the block, its value is entrywise in the loaded block, and the loaded block's entry `j`
    is the input array's entry at the same place as the output block's entry `j`. -/
theorem flushed_eq (c : Dev nD) (t : Fin cfg0.N) :
    (dats m 0 c).flushed 1 t = ((cfg0.win 1).blk t).view.read (Elt F) (rowsGelu (V m c main_v0)) := by
  show (cfg0.win 1).cut (grid0.coords t) ((dats m 0 c).after 1 t) = _
  rw [after0_1]
  unfold out0_1
  rw [View.canon_unit_zero origin]
  simp only [View.ld_unit_zero (S := S256x4096) origin]
  rw [Entrywise.stored_eq]
  obtain ⟨e0, e1⟩ := same_block t
  funext j
  show geluSquareFirst (V m c main_v0 (((cfg0.win 0).blk t).view.emb j)) = geluSquareFirst (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index of the output array lies in point `t`'s block iff each coordinate lies in the block's range on its axis. -/
theorem mem_block (t : Fin cfg0.N) (i : S16384x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- The blocks tile the output array: row `r` is in the block of the point whose block index is `r / 256`. -/
theorem covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := block_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- After the last grid point the output array is the piecewise function of the input array, at every index. -/
theorem output_array (c : Dev nD) : (dats m 0 c).arrAt 1 cfg0.N = rowsGelu (V m c main_v0) :=
  (dats m 0 c).arrAt_eq_of_cover 1 (rowsGelu (V m c main_v0)) (fun t _ => flushed_eq m c t) covered

end Cert.KernelIdeal.Blocks

end
-- ==== Proof.KernelRun.lean ====
/-
  The whole program around the call.  Before the call the program views its 4 × 4096 × 4096 argument as a
  16384 × 4096 array (same entries in the same row-major order) and hands that array to the call; after the
  call it views the call's 16384 × 4096 output as 4 × 4096 × 4096 again.  The call's output is the piecewise
  function of every entry of its input array.  A function applied entry by entry commutes with a change of view,
  and viewing an array as another shape and back returns the array, so the program's result is the piecewise
  function of every entry of the argument.
-/
import proofs.«105609_j9646496546830_2_alg».proof.Proof.KernelBlocks
import Idealize.ShloMosaic.Lib.StableHlo.Run

noncomputable section

namespace Cert.KernelIdeal.WholeRun

open Cert.KernelIdeal Cert.KernelIdeal.Gen Idealize.ShloMosaic Idealize.ShloMosaic.TcCoe Idealize.SL.Sem Cert.PiecewiseGelu
open Idealize.ShloMosaic.Pipeline (Dat)

variable {F : FTy → Type} [FloatOps F]
variable (m : (ℓ : Loc nD τ sig) → Buf (Elt F) ℓ) (ρ : Dev nD → PrngReg)

/-- A function applied to every entry commutes with viewing the array in another shape. -/
theorem shapeCast_entrywise {s t : Shape} {α β : Type} (f : α → β) (x : s.Idx → α) (h : s.ShapeCasts t) :
    shapeCast t (fun j => f (x j)) h = fun i => f (shapeCast t x h i) := rfl

/-- Viewing a 4 × 4096 × 4096 array as 16384 × 4096, applying the piecewise function to every entry, and viewing
    the result as 4 × 4096 × 4096 again is applying the piecewise function to every entry of the array. -/
theorem view_round_trip (x : S4x4096x4096.Idx → Elt F .f32) :
    shapeCast S4x4096x4096 (Blocks.rowsGelu (shapeCast S16384x4096 x shapeCasts_S4x4096x4096_S16384x4096))
        shapeCasts_S16384x4096_S4x4096x4096
      = fun i => geluSquareFirst (x i) :=
  (shapeCast_entrywise geluSquareFirst (shapeCast S16384x4096 x shapeCasts_S4x4096x4096_S16384x4096)
      shapeCasts_S16384x4096_S4x4096x4096).trans
    (congrArg (fun (a : S4x4096x4096.Idx → Elt F .f32) i => geluSquareFirst (a i))
      (shapeCast_shapeCast x shapeCasts_S4x4096x4096_S16384x4096 shapeCasts_S16384x4096_S4x4096x4096))

/-- The array the call reads is the argument viewed as 16384 × 4096. -/
theorem input_array (c : Dev nD) :
    (V m c main_v0 : S16384x4096.Idx → Elt F .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The program's result buffer after the lines that follow the call is the call's output array viewed as
    4 × 4096 × 4096. -/
theorem result_array (c : Dev nD) :
    (Pipeline.afterTail₀ cfgs (dats m) 0 (V0 m) [hostOps1] c main_v2 : S4x4096x4096.Idx → Elt F .f32)
      = shapeCast S4x4096x4096 ((dats m 0 c).arrAt 1 cfg0.N) shapeCasts_S16384x4096_S4x4096x4096 := by
  unfold Pipeline.afterTail₀
  show StableHlo.after hostOps1 _ (Proc.devRef .tc main_v2) = _
  after_results
  exact congrArg (fun a => shapeCast S4x4096x4096 a shapeCasts_S16384x4096_S4x4096x4096)
    (Pipeline.withArrays_arr spec0 launch0.win.arr_inj c (V0 m c) (fun w => (dats m 0 c).arrAt w cfg0.N) (1 : Fin 2))

/-- The program's result is the piecewise function of every entry of the argument: the call's output is that
    function of the argument's 16384 × 4096 view, entry by entry, and the view there and back is the identity. -/
theorem result_eq (c : Dev nD) :
    (Pipeline.afterTail₀ cfgs (dats m) 0 (V0 m) [hostOps1] c main_v2 : S4x4096x4096.Idx → Elt F .f32)
      = fun i => geluSquareFirst (m ((c : Thread nD τ).loc main_arg0) i) := by
  rw [result_array, Blocks.output_array, input_array]
  exact view_round_trip _

/-- Every weakly fair execution of the program terminates, with the result buffer holding the piecewise function
    of every entry of the argument and the argument unchanged. -/
theorem run : θ_run defs (onTc (τ := τ) (main (F := F))) ⟨m, fun _ => 0, ρ⟩ fun r => ∀ c : Dev nD,
      r.2.mem ((c : Thread nD τ).loc main_v2) = (fun i => geluSquareFirst (m ((c : Thread nD τ).loc main_arg0) i))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.WholeRun

end
-- ==== Proof.lean ====
/-
  A piecewise activation over f32[4, 4096, 4096], computed two ways.  For every entry x of the input the
  result is x when x ≥ 3, 0 when x ≤ -3, and (½ · x) · (1 + tanh (s · (x + c · x³))) otherwise, with s and c
  the single-precision values nearest √(2/π) and 0.044715.

  The kernel views the input as 16384 × 4096, walks 64 blocks of 256 rows, and on each block evaluates the
  function entry by entry with the cubic term grouped c · ((x · x) · x); the blocks tile the array, and the
  result is viewed as 4 × 4096 × 4096 again (Proof/KernelEntrywise, Proof/KernelBlocks, Proof/KernelRun).  The
  reference evaluates the function on the whole array with the cubic term grouped ((c · x) · x) · x
  (Proof/ReferenceEntrywise).  Over the extended reals the product is associative, at the infinities too, and
  the two hyperbolic tangents are one function, so the two results agree at every index for every input
  (Proof/Spec); finiteness of the input is never used.  All constants are the same binary words on both sides.

  The three frame claims are the generated frames (the reference's is its generated run with the result
  dropped); the idealization rewrote nothing, so the fourth claim is trivial.
-/
import proofs.«105609_j9646496546830_2_alg».proof.Defs
import proofs.«105609_j9646496546830_2_alg».proof.Proof.Gen.Kernel
import proofs.«105609_j9646496546830_2_alg».proof.Proof.Gen.Kernel.Skeleton
import proofs.«105609_j9646496546830_2_alg».proof.Proof.Gen.Kernel.Launch
import proofs.«105609_j9646496546830_2_alg».proof.Proof.Gen.Kernel.Points
import proofs.«105609_j9646496546830_2_alg».proof.Proof.Gen.Kernel.Frame
import proofs.«105609_j9646496546830_2_alg».proof.Proof.Gen.KernelIdeal
import proofs.«105609_j9646496546830_2_alg».proof.Proof.Gen.KernelIdeal.Skeleton
import proofs.«105609_j9646496546830_2_alg».proof.Proof.Gen.KernelIdeal.Launch
import proofs.«105609_j9646496546830_2_alg».proof.Proof.Gen.KernelIdeal.Points
import proofs.«105609_j9646496546830_2_alg».proof.Proof.Gen.KernelIdeal.Frame
import proofs.«105609_j9646496546830_2_alg».proof.Proof.Gen.ReferenceIdeal
import proofs.«105609_j9646496546830_2_alg».proof.Proof.Gen.Pre_finite_inputs
import proofs.«105609_j9646496546830_2_alg».proof.Proof.Gen.ReferenceIdeal.Run
import proofs.«105609_j9646496546830_2_alg».proof.Proof.Gen.ReferenceIdeal.Read
import proofs.«105609_j9646496546830_2_alg».proof.Proof.Spec
import proofs.«105609_j9646496546830_2_alg».proof.Proof.ReferenceEntrywise
import proofs.«105609_j9646496546830_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument both programs end with the same array: the kernel's result is the
    piecewise function with the square formed first at every entry, the reference's the one with the constant
    multiplied in first, and over the extended reals these are equal entry by entry. -/
theorem algebraic : Cert.algebraic_KernelIdeal_ReferenceIdeal := by
  intro m ρ m' ρ' _ hagree
  refine ⟨_, Cert.KernelIdeal.WholeRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Entrywise.result_eq, hagree c]
  funext i
  exact (Cert.PiecewiseGelu.gelu_regroup _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
